-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2000x26 : Shape := ⟨3, ![32, 2000, 26]⟩
abbrev S_ : Shape := ⟨0, ![]⟩

class Facts : Prop where
  bcast_S_S32x2000x26 : S_.BroadcastsInDim S32x2000x26 (![] : Fin 0 → Fin S32x2000x26.rank)
  reducesTo_S32x2000x26_S_d0_1_2 : S32x2000x26.ReducesTo [0, 1, 2] S_
  h_S_ : 0 < S_.numel

variable [Facts]

def fn {F : FTy → Type} [FloatOps F] (main_arg0 : FVec F S32x2000x26 .f32) : IVec S_ 1 :=
  let main_v0 : FVec F S32x2000x26 .f32 := Host.absf main_arg0
  let main_cst : FVec F S_ .f32 := constant S_ .f32 0x7F800000#32
  let main_v1 : FVec F S32x2000x26 .f32 := broadcastInDim S32x2000x26 ![] bcast_S_S32x2000x26 main_cst
  let main_v2 : IVec S32x2000x26 1 := cmpf .olt main_v0 main_v1
  let main_c : IVec S_ 1 := constantI S_ 1 1#1
  let main_v3 : IVec S_ 1 := (fun x v => Host.reduce IntOp.andi x v reducesTo_S32x2000x26_S_d0_1_2 h_S_) main_v2 main_c
  main_v3
-- ==== Kernel.lean ====
abbrev S32x2000x26 : Shape := ⟨3, ![32, 2000, 26]⟩
abbrev S_ : Shape := ⟨0, ![]⟩
abbrev S32x2018x26 : Shape := ⟨3, ![32, 2018, 26]⟩
abbrev S32x2000x494 : Shape := ⟨3, ![32, 2000, 494]⟩
abbrev S1x2018x26 : Shape := ⟨3, ![1, 2018, 26]⟩
abbrev S1x2000x494 : Shape := ⟨3, ![1, 2000, 494]⟩
abbrev S1x2000x26 : Shape := ⟨3, ![1, 2000, 26]⟩
abbrev S2000x26 : Shape := ⟨2, ![2000, 26]⟩

abbrev nBuf : Space → Nat
  | .hbm => 5
  | .vmem => 4
  | .smem => 0
  | _ => 0

abbrev bufTy : (tb : Table) → Fin (tcTables nBuf tb) → BufTy
  | .hbm, ⟨0, _⟩ => ⟨S32x2000x26, .f32⟩
  | .hbm, ⟨1, _⟩ => ⟨S_, .i32⟩
  | .hbm, ⟨2, _⟩ => ⟨S_, .f32⟩
  | .hbm, ⟨3, _⟩ => ⟨S32x2018x26, .f32⟩
  | .hbm, ⟨4, _⟩ => ⟨S32x2000x494, .f32⟩
  | .local _ .vmem, ⟨0, _⟩ => ⟨S1x2018x26, .f32⟩
  | .local _ .vmem, ⟨1, _⟩ => ⟨S1x2018x26, .f32⟩
  | .local _ .vmem, ⟨2, _⟩ => ⟨S1x2000x494, .f32⟩
  | .local _ .vmem, ⟨3, _⟩ => ⟨S1x2000x494, .f32⟩
  | _, _ => ⟨S32x2000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2018x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x494 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S32x2000x26_S32x2018x26_000_990_000 : S32x2000x26.Pads (![0, 9, 0] : Fin 3 → Nat) ![0, 9, 0] ![0, 0, 0] S32x2018x26
  h_S_ : 0 < S_.numel
  inb_S1x2018x26_S1x2000x26_0_0_0 : ∀ a, (![0, 0, 0] : Fin 3 → Nat) a + S1x2000x26.size a ≤ S1x2018x26.size a
  h_S1x2000x26 : 0 < S1x2000x26.numel
  shapeCasts_S1x2000x26_S2000x26 : S1x2000x26.ShapeCasts S2000x26
  inb_S1x2000x494_S1x2000x26_0_0_0 : ∀ a, (![0, 0, 0] : Fin 3 → Nat) a + S1x2000x26.size a ≤ S1x2000x494.size a
  shapeCasts_S2000x26_S1x2000x26 : S2000x26.ShapeCasts S1x2000x26
  inb_S1x2018x26_S1x2000x26_0_1_0 : ∀ a, (![0, 1, 0] : Fin 3 → Nat) a + S1x2000x26.size a ≤ S1x2018x26.size a
  inb_S1x2000x494_S1x2000x26_0_0_26 : ∀ a, (![0, 0, 26] : Fin 3 → Nat) a + S1x2000x26.size a ≤ S1x2000x494.size a
  inb_S1x2018x26_S1x2000x26_0_2_0 : ∀ a, (![0, 2, 0] : Fin 3 → Nat) a + S1x2000x26.size a ≤ S1x2018x26.size a
  inb_S1x2000x494_S1x2000x26_0_0_52 : ∀ a, (![0, 0, 52] : Fin 3 → Nat) a + S1x2000x26.size a ≤ S1x2000x494.size a
  inb_S1x2018x26_S1x2000x26_0_3_0 : ∀ a, (![0, 3, 0] : Fin 3 → Nat) a + S1x2000x26.size a ≤ S1x2018x26.size a
  inb_S1x2000x494_S1x2000x26_0_0_78 : ∀ a, (![0, 0, 78] : Fin 3 → Nat) a + S1x2000x26.size a ≤ S1x2000x494.size a
  inb_S1x2018x26_S1x2000x26_0_4_0 : ∀ a, (![0, 4, 0] : Fin 3 → Nat) a + S1x2000x26.size a ≤ S1x2018x26.size a
  inb_S1x2000x494_S1x2000x26_0_0_104 : ∀ a, (![0, 0, 104] : Fin 3 → Nat) a + S1x2000x26.size a ≤ S1x2000x494.size a
  inb_S1x2018x26_S1x2000x26_0_5_0 : ∀ a, (![0, 5, 0] : Fin 3 → Nat) a + S1x2000x26.size a ≤ S1x2018x26.size a
  inb_S1x2000x494_S1x2000x26_0_0_130 : ∀ a, (![0, 0, 130] : Fin 3 → Nat) a + S1x2000x26.size a ≤ S1x2000x494.size a
  inb_S1x2018x26_S1x2000x26_0_6_0 : ∀ a, (![0, 6, 0] : Fin 3 → Nat) a + S1x2000x26.size a ≤ S1x2018x26.size a
  inb_S1x2000x494_S1x2000x26_0_0_156 : ∀ a, (![0, 0, 156] : Fin 3 → Nat) a + S1x2000x26.size a ≤ S1x2000x494.size a
  inb_S1x2018x26_S1x2000x26_0_7_0 : ∀ a, (![0, 7, 0] : Fin 3 → Nat) a + S1x2000x26.size a ≤ S1x2018x26.size a
  inb_S1x2000x494_S1x2000x26_0_0_182 : ∀ a, (![0, 0, 182] : Fin 3 → Nat) a + S1x2000x26.size a ≤ S1x2000x494.size a
  inb_S1x2018x26_S1x2000x26_0_8_0 : ∀ a, (![0, 8, 0] : Fin 3 → Nat) a + S1x2000x26.size a ≤ S1x2018x26.size a
  inb_S1x2000x494_S1x2000x26_0_0_208 : ∀ a, (![0, 0, 208] : Fin 3 → Nat) a + S1x2000x26.size a ≤ S1x2000x494.size a
  inb_S1x2018x26_S1x2000x26_0_9_0 : ∀ a, (![0, 9, 0] : Fin 3 → Nat) a + S1x2000x26.size a ≤ S1x2018x26.size a
  inb_S1x2000x494_S1x2000x26_0_0_234 : ∀ a, (![0, 0, 234] : Fin 3 → Nat) a + S1x2000x26.size a ≤ S1x2000x494.size a
  inb_S1x2018x26_S1x2000x26_0_10_0 : ∀ a, (![0, 10, 0] : Fin 3 → Nat) a + S1x2000x26.size a ≤ S1x2018x26.size a
  inb_S1x2000x494_S1x2000x26_0_0_260 : ∀ a, (![0, 0, 260] : Fin 3 → Nat) a + S1x2000x26.size a ≤ S1x2000x494.size a
  inb_S1x2018x26_S1x2000x26_0_11_0 : ∀ a, (![0, 11, 0] : Fin 3 → Nat) a + S1x2000x26.size a ≤ S1x2018x26.size a
  inb_S1x2000x494_S1x2000x26_0_0_286 : ∀ a, (![0, 0, 286] : Fin 3 → Nat) a + S1x2000x26.size a ≤ S1x2000x494.size a
  inb_S1x2018x26_S1x2000x26_0_12_0 : ∀ a, (![0, 12, 0] : Fin 3 → Nat) a + S1x2000x26.size a ≤ S1x2018x26.size a
  inb_S1x2000x494_S1x2000x26_0_0_312 : ∀ a, (![0, 0, 312] : Fin 3 → Nat) a + S1x2000x26.size a ≤ S1x2000x494.size a
  inb_S1x2018x26_S1x2000x26_0_13_0 : ∀ a, (![0, 13, 0] : Fin 3 → Nat) a + S1x2000x26.size a ≤ S1x2018x26.size a
  inb_S1x2000x494_S1x2000x26_0_0_338 : ∀ a, (![0, 0, 338] : Fin 3 → Nat) a + S1x2000x26.size a ≤ S1x2000x494.size a
  inb_S1x2018x26_S1x2000x26_0_14_0 : ∀ a, (![0, 14, 0] : Fin 3 → Nat) a + S1x2000x26.size a ≤ S1x2018x26.size a
  inb_S1x2000x494_S1x2000x26_0_0_364 : ∀ a, (![0, 0, 364] : Fin 3 → Nat) a + S1x2000x26.size a ≤ S1x2000x494.size a
  inb_S1x2018x26_S1x2000x26_0_15_0 : ∀ a, (![0, 15, 0] : Fin 3 → Nat) a + S1x2000x26.size a ≤ S1x2018x26.size a
  inb_S1x2000x494_S1x2000x26_0_0_390 : ∀ a, (![0, 0, 390] : Fin 3 → Nat) a + S1x2000x26.size a ≤ S1x2000x494.size a
  inb_S1x2018x26_S1x2000x26_0_16_0 : ∀ a, (![0, 16, 0] : Fin 3 → Nat) a + S1x2000x26.size a ≤ S1x2018x26.size a
  inb_S1x2000x494_S1x2000x26_0_0_416 : ∀ a, (![0, 0, 416] : Fin 3 → Nat) a + S1x2000x26.size a ≤ S1x2000x494.size a
  inb_S1x2018x26_S1x2000x26_0_17_0 : ∀ a, (![0, 17, 0] : Fin 3 → Nat) a + S1x2000x26.size a ≤ S1x2018x26.size a
  inb_S1x2000x494_S1x2000x26_0_0_442 : ∀ a, (![0, 0, 442] : Fin 3 → Nat) a + S1x2000x26.size a ≤ S1x2000x494.size a
  inb_S1x2018x26_S1x2000x26_0_18_0 : ∀ a, (![0, 18, 0] : Fin 3 → Nat) a + S1x2000x26.size a ≤ S1x2018x26.size a
  inb_S1x2000x494_S1x2000x26_0_0_468 : ∀ a, (![0, 0, 468] : Fin 3 → Nat) a + S1x2000x26.size a ≤ S1x2000x494.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2018x26.size a ≤ S32x2018x26.size a
  hwx0_0 : ∀ i : grid0.Coords, EltTy.bits .f32 = 32 ∨ (Rect.block (s := S32x2018x26) S1x2018x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x494.size a ≤ S32x2000x494.size a
  hwx0_1 : ∀ i : grid0.Coords, EltTy.bits .f32 = 32 ∨ (Rect.block (s := S32x2000x494) S1x2000x494.size (cc0_transform_1 i) (hinb0_1 i)).WholeWords (EltTy.packing .f32)

variable [Facts₀]

abbrev win0_0 : Pipeline.Window sig grid0 :=
  Pipeline.Window.ofSpec (Memref.whole main_v0) S1x2018x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2000x494.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2000x26 : Shape := ⟨3, ![32, 2000, 26]⟩
abbrev S_ : Shape := ⟨0, ![]⟩
abbrev S32x2018x26 : Shape := ⟨3, ![32, 2018, 26]⟩
abbrev S32x2000x1x26 : Shape := ⟨4, ![32, 2000, 1, 26]⟩
abbrev S32x2000x16x26 : Shape := ⟨4, ![32, 2000, 16, 26]⟩
abbrev S32x2000x3x26 : Shape := ⟨4, ![32, 2000, 3, 26]⟩
abbrev S32x2000x19x26 : Shape := ⟨4, ![32, 2000, 19, 26]⟩
abbrev S32x2000x494 : Shape := ⟨3, ![32, 2000, 494]⟩

abbrev nBuf : Space → Nat
  | .hbm => 46
  | .vmem => 0
  | .smem => 0
  | _ => 0

abbrev bufTy : (tb : Table) → Fin (tcTables nBuf tb) → BufTy
  | .hbm, ⟨0, _⟩ => ⟨S32x2000x26, .f32⟩
  | .hbm, ⟨1, _⟩ => ⟨S_, .i32⟩
  | .hbm, ⟨2, _⟩ => ⟨S_, .f32⟩
  | .hbm, ⟨3, _⟩ => ⟨S32x2018x26, .f32⟩
  | .hbm, ⟨4, _⟩ => ⟨S32x2000x26, .f32⟩
  | .hbm, ⟨5, _⟩ => ⟨S32x2000x26, .f32⟩
  | .hbm, ⟨6, _⟩ => ⟨S32x2000x26, .f32⟩
  | .hbm, ⟨7, _⟩ => ⟨S32x2000x26, .f32⟩
  | .hbm, ⟨8, _⟩ => ⟨S32x2000x26, .f32⟩
  | .hbm, ⟨9, _⟩ => ⟨S32x2000x26, .f32⟩
  | .hbm, ⟨10, _⟩ => ⟨S32x2000x26, .f32⟩
  | .hbm, ⟨11, _⟩ => ⟨S32x2000x26, .f32⟩
  | .hbm, ⟨12, _⟩ => ⟨S32x2000x26, .f32⟩
  | .hbm, ⟨13, _⟩ => ⟨S32x2000x26, .f32⟩
  | .hbm, ⟨14, _⟩ => ⟨S32x2000x26, .f32⟩
  | .hbm, ⟨15, _⟩ => ⟨S32x2000x26, .f32⟩
  | .hbm, ⟨16, _⟩ => ⟨S32x2000x26, .f32⟩
  | .hbm, ⟨17, _⟩ => ⟨S32x2000x26, .f32⟩
  | .hbm, ⟨18, _⟩ => ⟨S32x2000x26, .f32⟩
  | .hbm, ⟨19, _⟩ => ⟨S32x2000x26, .f32⟩
  | .hbm, ⟨20, _⟩ => ⟨S32x2000x26, .f32⟩
  | .hbm, ⟨21, _⟩ => ⟨S32x2000x26, .f32⟩
  | .hbm, ⟨22, _⟩ => ⟨S32x2000x26, .f32⟩
  | .hbm, ⟨23, _⟩ => ⟨S32x2000x1x26, .f32⟩
  | .hbm, ⟨24, _⟩ => ⟨S32x2000x1x26, .f32⟩
  | .hbm, ⟨25, _⟩ => ⟨S32x2000x1x26, .f32⟩
  | .hbm, ⟨26, _⟩ => ⟨S32x2000x1x26, .f32⟩
  | .hbm, ⟨27, _⟩ => ⟨S32x2000x1x26, .f32⟩
  | .hbm, ⟨28, _⟩ => ⟨S32x2000x1x26, .f32⟩
  | .hbm, ⟨29, _⟩ => ⟨S32x2000x1x26, .f32⟩
  | .hbm, ⟨30, _⟩ => ⟨S32x2000x1x26, .f32⟩
  | .hbm, ⟨31, _⟩ => ⟨S32x2000x1x26, .f32⟩
  | .hbm, ⟨32, _⟩ => ⟨S32x2000x1x26, .f32⟩
  | .hbm, ⟨33, _⟩ => ⟨S32x2000x1x26, .f32⟩
  | .hbm, ⟨34, _⟩ => ⟨S32x2000x1x26, .f32⟩
  | .hbm, ⟨35, _⟩ => ⟨S32x2000x1x26, .f32⟩
  | .hbm, ⟨36, _⟩ => ⟨S32x2000x1x26, .f32⟩
  | .hbm, ⟨37, _⟩ => ⟨S32x2000x1x26, .f32⟩
  | .hbm, ⟨38, _⟩ => ⟨S32x2000x1x26, .f32⟩
  | .hbm, ⟨39, _⟩ => ⟨S32x2000x1x26, .f32⟩
  | .hbm, ⟨40, _⟩ => ⟨S32x2000x1x26, .f32⟩
  | .hbm, ⟨41, _⟩ => ⟨S32x2000x1x26, .f32⟩
  | .hbm, ⟨42, _⟩ => ⟨S32x2000x16x26, .f32⟩
  | .hbm, ⟨43, _⟩ => ⟨S32x2000x3x26, .f32⟩
  | .hbm, ⟨44, _⟩ => ⟨S32x2000x19x26, .f32⟩
  | .hbm, ⟨45, _⟩ => ⟨S32x2000x494, .f32⟩
  | _, _ => ⟨S32x2000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩

abbrev nD : Nat := 1
abbrev τ : Topo := Topo.v7x

variable {F : FTy → Type} [FloatOps F]

class Facts₀ : Prop where
  pads_S32x2000x26_S32x2018x26_000_990_000 : S32x2000x26.Pads (![0, 9, 0] : Fin 3 → Nat) ![0, 9, 0] ![0, 0, 0] S32x2018x26
  h_S_ : 0 < S_.numel
  slices_S32x2018x26_S32x2000x26_0_0_0 : S32x2018x26.Slices ![0, 0, 0] S32x2000x26
  slices_S32x2018x26_S32x2000x26_0_1_0 : S32x2018x26.Slices ![0, 1, 0] S32x2000x26
  slices_S32x2018x26_S32x2000x26_0_2_0 : S32x2018x26.Slices ![0, 2, 0] S32x2000x26
  slices_S32x2018x26_S32x2000x26_0_3_0 : S32x2018x26.Slices ![0, 3, 0] S32x2000x26
  slices_S32x2018x26_S32x2000x26_0_4_0 : S32x2018x26.Slices ![0, 4, 0] S32x2000x26
  slices_S32x2018x26_S32x2000x26_0_5_0 : S32x2018x26.Slices ![0, 5, 0] S32x2000x26
  slices_S32x2018x26_S32x2000x26_0_6_0 : S32x2018x26.Slices ![0, 6, 0] S32x2000x26
  slices_S32x2018x26_S32x2000x26_0_7_0 : S32x2018x26.Slices ![0, 7, 0] S32x2000x26
  slices_S32x2018x26_S32x2000x26_0_8_0 : S32x2018x26.Slices ![0, 8, 0] S32x2000x26
  slices_S32x2018x26_S32x2000x26_0_9_0 : S32x2018x26.Slices ![0, 9, 0] S32x2000x26
  slices_S32x2018x26_S32x2000x26_0_10_0 : S32x2018x26.Slices ![0, 10, 0] S32x2000x26
  slices_S32x2018x26_S32x2000x26_0_11_0 : S32x2018x26.Slices ![0, 11, 0] S32x2000x26
  slices_S32x2018x26_S32x2000x26_0_12_0 : S32x2018x26.Slices ![0, 12, 0] S32x2000x26
  slices_S32x2018x26_S32x2000x26_0_13_0 : S32x2018x26.Slices ![0, 13, 0] S32x2000x26
  slices_S32x2018x26_S32x2000x26_0_14_0 : S32x2018x26.Slices ![0, 14, 0] S32x2000x26
  slices_S32x2018x26_S32x2000x26_0_15_0 : S32x2018x26.Slices ![0, 15, 0] S32x2000x26
  slices_S32x2018x26_S32x2000x26_0_16_0 : S32x2018x26.Slices ![0, 16, 0] S32x2000x26
  slices_S32x2018x26_S32x2000x26_0_17_0 : S32x2018x26.Slices ![0, 17, 0] S32x2000x26
  slices_S32x2018x26_S32x2000x26_0_18_0 : S32x2018x26.Slices ![0, 18, 0] S32x2000x26
  bcast_S32x2000x26_S32x2000x1x26_0_1_3 : S32x2000x26.BroadcastsInDim S32x2000x1x26 (![0, 1, 3] : Fin 3 → Fin S32x2000x1x26.rank)
  concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2 : Shape.Concatenates [S32x2000x1x26, S32x2000x1x26, S32x2000x1x26, S32x2000x1x26, S32x2000x1x26, S32x2000x1x26, S32x2000x1x26, S32x2000x1x26, S32x2000x1x26, S32x2000x1x26, S32x2000x1x26, S32x2000x1x26, S32x2000x1x26, S32x2000x1x26, S32x2000x1x26, S32x2000x1x26] S32x2000x16x26 2
  concatenates_S32x2000x1x26_S32x2000x1x26_S32x2000x1x26_S32x2000x3x26_d2 : Shape.Concatenates [S32x2000x1x26, S32x2000x1x26, S32x2000x1x26] S32x2000x3x26 2
  concatenates_S32x2000x16x26_S32x2000x3x26_S32x2000x19x26_d2 : Shape.Concatenates [S32x2000x16x26, S32x2000x3x26] S32x2000x19x26 2
  shapeCasts_S32x2000x19x26_S32x2000x494 : S32x2000x19x26.ShapeCasts S32x2000x494

variable [Facts₀]

class Facts : Prop extends Facts₀ where

variable [Facts]
-- ==== Proof.Windows.lean ====
/-
  Overlapping context windows of a padded sequence, as one re-indexing of the padded array.

  A batch of `n` sequences, each of 2018 frames of 26 features (2000 frames with 9 frames of padding in front and 9 behind),
  is unfolded into `n` sequences of 2000 frames of 494 = 19 · 26 features: frame `t` of the result carries the 19 consecutive
  padded frames `t, t + 1, …, t + 18` side by side, window `w` in columns `26 w … 26 w + 25`. Column `j` of result frame `t`
  is therefore feature `j mod 26` of padded frame `t + j / 26`. No arithmetic is done on the values: the result is the padded
  array read through a map of indices, whatever the values are.
-/
import Idealize.ShloMosaic.Lib.ValueIdx

namespace Cert.Windows

open Idealize.ShloMosaic

/-- `n` padded sequences: 2018 frames of 26 features. -/
abbrev Padded (n : Nat) : Shape := ⟨3, ![n, 2018, 26]⟩
/-- `n` unfolded sequences: 2000 frames of 19 windows of 26 features. -/
abbrev Unfolded (n : Nat) : Shape := ⟨3, ![n, 2000, 494]⟩

/-- Where element `j` of the unfolded array comes from: the same sequence, padded frame `j 1 + j 2 / 26` (the frame of
    window `j 2 / 26`), feature `j 2 mod 26`. -/
def src (n : Nat) (j : (Unfolded n).Idx) : (Padded n).Idx := fun a => match a with
  | ⟨0, _⟩ => ⟨(j 0).val, (j 0).isLt⟩
  | ⟨1, _⟩ => ⟨(j 1).val + (j 2).val / 26, by
      have h1 : (j 1).val < 2000 := (j 1).isLt
      have h2 : (j 2).val < 494 := (j 2).isLt
      show (j 1).val + (j 2).val / 26 < 2018; omega⟩
  | ⟨2, _⟩ => ⟨(j 2).val % 26, by show (j 2).val % 26 < 26; omega⟩

theorem src_val0 (n : Nat) (j : (Unfolded n).Idx) : (src n j 0).val = (j 0).val := rfl
theorem src_val1 (n : Nat) (j : (Unfolded n).Idx) : (src n j 1).val = (j 1).val + (j 2).val / 26 := rfl
theorem src_val2 (n : Nat) (j : (Unfolded n).Idx) : (src n j 2).val = (j 2).val % 26 := rfl

/-- The unfolded array of a padded array `P`: `P` read at `src`. -/
def unfold {α : Type} (n : Nat) (P : (Padded n).Idx → α) : (Unfolded n).Idx → α := fun j => P (src n j)

theorem unfold_apply {α : Type} (n : Nat) (P : (Padded n).Idx → α) (j : (Unfolded n).Idx) :
    unfold n P j = P (src n j) := rfl

end Cert.Windows
-- ==== Proof.BodyWindows.lean ====
/-
  What one grid point leaves in its output block.

  The kernel body of a grid point reads its block of the padded array — one sequence, [1, 2018, 26] — through 19 rectangles
  of 2000 frames, the rectangle of window `w` starting at padded frame `w`, and stores each, unchanged (its value is cast to
  [2000, 26] and back, which is the identity), into columns `26 w … 26 w + 25` of its output block [1, 2000, 494]. The 19
  column strips tile the output block, and on each strip the stored value is the padded block read at
  `Windows.src`: on strip `w` a column `26 w + c` with `c < 26` has quotient `w` and remainder `c` by 26. So the block
  after the body is the unfolded block of the padded block.
-/
import proofs.«112819_j5377299054741_2_alg».proof.Proof.Gen.KernelIdeal.Frame
import proofs.«112819_j5377299054741_2_alg».proof.Proof.Windows
import Idealize.ShloMosaic.Lib.Pipeline.Value

set_option maxRecDepth 16384

noncomputable section

namespace Cert.KernelIdeal.BodyWindows

open Cert.KernelIdeal Cert.KernelIdeal.Gen Idealize.ShloMosaic

variable {F : FTy → Type} [FloatOps F]

/-! ## Each stored value is the loaded value: a cast to [2000, 26] and back -/

theorem pay1_id (v : Vec F S1x2000x26 .f32) : k0_pay1 v = v := by
  unfold k0_pay1; exact shapeCast_shapeCast v _ _
theorem pay2_id (v : Vec F S1x2000x26 .f32) : k0_pay2 v = v := by
  unfold k0_pay2; exact shapeCast_shapeCast v _ _
theorem pay3_id (v : Vec F S1x2000x26 .f32) : k0_pay3 v = v := by
  unfold k0_pay3; exact shapeCast_shapeCast v _ _
theorem pay4_id (v : Vec F S1x2000x26 .f32) : k0_pay4 v = v := by
  unfold k0_pay4; exact shapeCast_shapeCast v _ _
theorem pay5_id (v : Vec F S1x2000x26 .f32) : k0_pay5 v = v := by
  unfold k0_pay5; exact shapeCast_shapeCast v _ _
theorem pay6_id (v : Vec F S1x2000x26 .f32) : k0_pay6 v = v := by
  unfold k0_pay6; exact shapeCast_shapeCast v _ _
theorem pay7_id (v : Vec F S1x2000x26 .f32) : k0_pay7 v = v := by
  unfold k0_pay7; exact shapeCast_shapeCast v _ _
theorem pay8_id (v : Vec F S1x2000x26 .f32) : k0_pay8 v = v := by
  unfold k0_pay8; exact shapeCast_shapeCast v _ _
theorem pay9_id (v : Vec F S1x2000x26 .f32) : k0_pay9 v = v := by
  unfold k0_pay9; exact shapeCast_shapeCast v _ _
theorem pay10_id (v : Vec F S1x2000x26 .f32) : k0_pay10 v = v := by
  unfold k0_pay10; exact shapeCast_shapeCast v _ _
theorem pay11_id (v : Vec F S1x2000x26 .f32) : k0_pay11 v = v := by
  unfold k0_pay11; exact shapeCast_shapeCast v _ _
theorem pay12_id (v : Vec F S1x2000x26 .f32) : k0_pay12 v = v := by
  unfold k0_pay12; exact shapeCast_shapeCast v _ _
theorem pay13_id (v : Vec F S1x2000x26 .f32) : k0_pay13 v = v := by
  unfold k0_pay13; exact shapeCast_shapeCast v _ _
theorem pay14_id (v : Vec F S1x2000x26 .f32) : k0_pay14 v = v := by
  unfold k0_pay14; exact shapeCast_shapeCast v _ _
theorem pay15_id (v : Vec F S1x2000x26 .f32) : k0_pay15 v = v := by
  unfold k0_pay15; exact shapeCast_shapeCast v _ _
theorem pay16_id (v : Vec F S1x2000x26 .f32) : k0_pay16 v = v := by
  unfold k0_pay16; exact shapeCast_shapeCast v _ _
theorem pay17_id (v : Vec F S1x2000x26 .f32) : k0_pay17 v = v := by
  unfold k0_pay17; exact shapeCast_shapeCast v _ _
theorem pay18_id (v : Vec F S1x2000x26 .f32) : k0_pay18 v = v := by
  unfold k0_pay18; exact shapeCast_shapeCast v _ _
theorem pay19_id (v : Vec F S1x2000x26 .f32) : k0_pay19 v = v := by
  unfold k0_pay19; exact shapeCast_shapeCast v _ _

/-! ## The output block is the unfolded input block -/

/-- On the strip of window `w` (columns from `26 w`, `w ≤ 18`), the padded block read through the rectangle starting at frame
    `w` is the padded block read at `Windows.src` of the strip's element. -/
theorem strip_eq (x0 : Vec F S1x2018x26 .f32) (w : Nat) (hw : w ≤ 18)
    (x : S1x2000x26.Idx) (il : S1x2018x26.Idx) (is : S1x2000x494.Idx)
    (l0 : (il 0).val = 0 + 1 * (x 0).val) (l1 : (il 1).val = w + 1 * (x 1).val) (l2 : (il 2).val = 0 + 1 * (x 2).val)
    (s0 : (is 0).val = 0 + 1 * (x 0).val) (s1 : (is 1).val = 0 + 1 * (x 1).val) (s2 : (is 2).val = 26 * w + 1 * (x 2).val) :
    x0 il = x0 (Windows.src 1 is) := by
  have hx2 : (x 2).val < 26 := (x 2).isLt
  refine congrArg x0 (funext fun a => Fin.ext ?_)
  match a with
  | ⟨0, _⟩ => show (il 0).val = (is 0).val; omega
  | ⟨1, _⟩ => show (il 1).val = (is 1).val + (is 2).val / 26; omega
  | ⟨2, _⟩ => show (il 2).val = (is 2).val % 26; omega

/-- After the body, the output block is the unfolded block of the input block. -/
theorem out_eq (x0 : Vec F S1x2018x26 .f32) (y : S1x2000x494.Idx) :
    out0_1 x0 y = Windows.unfold 1 x0 y := by
  unfold out0_1
  refine View.canon_apply_of_pieces (Windows.unfold 1 x0) _ ?_ y
    (cover0_1 _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 18 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 17 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 16 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 15 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 14 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 13 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 12 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 11 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 10 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 9 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 8 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 7 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 6 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 5 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 4 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 3 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 2 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 1 (by omega) x _ _ rfl rfl rfl rfl rfl rfl
  · simp only [pay1_id, pay2_id, pay3_id, pay4_id, pay5_id, pay6_id, pay7_id, pay8_id, pay9_id, pay10_id, pay11_id, pay12_id, pay13_id, pay14_id, pay15_id, pay16_id, pay17_id, pay18_id, pay19_id]; exact strip_eq x0 0 (by omega) x _ _ rfl rfl rfl rfl rfl rfl

end Cert.KernelIdeal.BodyWindows

end
-- ==== Proof.KernelWindows.lean ====
/-
  The kernel's result array is the unfolded array of its padded array.

  @main pads the input as the reference does — the same three operations — and hands the padded array to the one
  pallas_call, whose grid has a point per sequence: point `t` fetches sequence `t` of the padded array ([1, 2018, 26]) and
  writes back sequence `t` of the result ([1, 2000, 494]). What a point leaves in its output block is the unfolded block
  of its input block (`BodyWindows.out_eq`); an element of either block sits in its array at the same frame and
  feature, in sequence `t`; so each point writes back block `t` of the unfolded array of the padded array, and the 32
  blocks cover the result.
-/
import proofs.«112819_j5377299054741_2_alg».proof.Proof.Gen.KernelIdeal.Value
import proofs.«112819_j5377299054741_2_alg».proof.Proof.BodyWindows
import proofs.«112819_j5377299054741_2_alg».proof.Proof.Windows
import Idealize.ShloMosaic.Lib.StableHlo.Run

set_option maxRecDepth 16384

noncomputable section

namespace Cert.KernelIdeal.KernelWindows

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The padded array the region finds -/

/-- The padded input: 9 frames of the padding value (the integer 0 converted to a float) before and after each sequence. -/
def padded (x : S32x2000x26.Idx → Elt F .f32) : S32x2018x26.Idx → Elt F .f32 :=
  pad S32x2018x26 ![0, 9, 0] ![0, 9, 0] ![0, 0, 0] x (sitofp .f32 (constantI S_ 32 0#32)) pads_S32x2000x26_S32x2018x26_000_990_000 h_S_

/-- When the region is entered, the buffer its input window stages holds the padded input. -/
theorem V_padded (c : Dev nD) :
    (V m c main_v0 : S32x2018x26.Idx → Elt F .f32) = padded (m ((c : Thread nD τ).loc main_arg0)) := by
  dsimp only [V]
  simp only [hostOps0, hostOps0_1, List.flatten_cons, List.flatten_nil, List.append_nil, List.cons_append, List.nil_append]
  after_results
  rfl

/-! ## Block `t` of either array is sequence `t` -/

/-- The printed index maps, decided over the 32 points: both windows' block index is the point on the sequence axis and
    zero on the frame and feature axes. -/
theorem idx_facts : ∀ t : Fin cfg0.N,
    win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every sequence is some point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- What point `t` writes back is block `t` of the unfolded array of the padded array. -/
theorem flushed_eq (c : Dev nD) (t : Fin cfg0.N) :
    (dats m 0 c).flushed 1 t = ((cfg0.win 1).blk t).view.read (Elt F) (Windows.unfold 32 (V m c main_v0)) := by
  rw [Value.flushed1]
  obtain ⟨e0, e1, e2, e3, e4⟩ := idx_facts t
  funext y
  show out0_1 (iblk m c 0 t) y = V m c main_v0 (Windows.src 32 (((cfg0.win 1).blk t).view.emb y))
  refine (BodyWindows.out_eq (iblk m c 0 t) y).trans ?_
  show V m c main_v0 (((cfg0.win 0).blk t).view.emb (Windows.src 1 y)) = V m c main_v0 (Windows.src 32 (((cfg0.win 1).blk t).view.emb y))
  have hy0 : (y 0).val < 1 := (y 0).isLt
  refine congrArg (V m c main_v0) (funext fun a => Fin.ext ?_)
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 2018 + 1 * ((y 1).val + (y 2).val / 26)
      = (win0_1.index t (1 : Fin 3) * 2000 + 1 * (y 1).val) + (win0_1.index t (2 : Fin 3) * 494 + 1 * (y 2).val) / 26
    omega
  | ⟨2, _⟩ =>
    show win0_0.index t (2 : Fin 3) * 26 + 1 * ((y 2).val % 26) = (win0_1.index t (2 : Fin 3) * 494 + 1 * (y 2).val) % 26
    omega

/-- An index of the result is in point `t`'s block iff each coordinate is in the block's range on its axis. -/
theorem mem_blk (t : Fin cfg0.N) (i : S32x2000x494.Idx) :
    i ∈ ((cfg0.win 1).blk t).view.set ↔ ∀ a : Fin 3, win0_1.index t a * S1x2000x494.size a ≤ (i a).val
      ∧ (i a).val < win0_1.index t a * S1x2000x494.size a + S1x2000x494.size a := by
  show i ∈ ((View.whole main_v1).slice (win0_1.rect t)).set ↔ _
  rw [View.set_slice_whole, Rect.mem_set_unit]
  exact Iff.rfl

/-- Every index of the result is in the block of the point of its sequence. -/
theorem cover (i : S32x2000x494.Idx) :
    ∃ t : Fin cfg0.N, (cfg0.win 1).flush t = true ∧ i ∈ ((cfg0.win 1).blk t).view.set := by
  obtain ⟨t, ht⟩ := idx_onto ⟨(i 0).val, (i 0).isLt⟩
  have q0 : win0_1.index t (0 : Fin 3) = (i 0).val := congrFun ht 0
  have q1 : win0_1.index t (1 : Fin 3) = 0 := congrFun ht 1
  have q2 : win0_1.index t (2 : Fin 3) = 0 := congrFun ht 2
  have h1 : (i 1).val < 2000 := (i 1).isLt
  have h2 : (i 2).val < 494 := (i 2).isLt
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 2000 ≤ (i 1).val ∧ (i 1).val < win0_1.index t (1 : Fin 3) * 2000 + 2000; omega
  | ⟨2, _⟩ => show win0_1.index t (2 : Fin 3) * 494 ≤ (i 2).val ∧ (i 2).val < win0_1.index t (2 : Fin 3) * 494 + 494; omega

/-- The result array after the run: the unfolded array of the padded input. -/
theorem final (c : Dev nD) :
    (dats m 0 c).arrAt 1 cfg0.N = Windows.unfold 32 (padded (m ((c : Thread nD τ).loc main_arg0))) :=
  ((dats m 0 c).arrAt_eq_of_cover 1 (Windows.unfold 32 (V m c main_v0)) (fun t _ => flushed_eq m c t) cover).trans
    (congrArg (Windows.unfold 32) (V_padded m c))

/-- Every weakly fair execution of the kernel's program terminates with the result array at the unfolded array of the
    padded input and the input unchanged. -/
theorem run : θ_run defs (onTc (τ := τ) (main (F := F))) ⟨m, fun _ => 0, ρ⟩ fun r => ∀ c : Dev nD,
      r.2.mem ((c : Thread nD τ).loc main_v1) = Windows.unfold 32 (padded (m ((c : Thread nD τ).loc main_arg0)))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelWindows

end
-- ==== Proof.RefOps.lean ====
/-
  The reference program's @main as a list of its 45 host operations, in order.

  @main pads the input (a constant 0, its conversion to a float and the pad: the three operations of the function it
  calls, at the call's buffers), takes 19 slices of the padded array, gives each a unit window axis, joins the first 16
  and the last 3 along that axis, joins the two groups, and reshapes. The operations of the called function are written at
  that call's buffers as plain operations: at a reference that carries its own type the typed spelling is the plain one.
-/
import proofs.«112819_j5377299054741_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_c (constantI S_ 32 0#32),
    unary main_c main_call0_v0 (sitofp .f32 : (⟨S_, .i32⟩ : BufTy).Contents (Elt F) → (⟨S_, .f32⟩ : BufTy).Contents (Elt F)),
    binary main_arg0 main_call0_v0 main_v0 ((fun x v => pad S32x2018x26 ![0, 9, 0] ![0, 9, 0] ![0, 0, 0] x v pads_S32x2000x26_S32x2018x26_000_990_000 h_S_) : (⟨S32x2000x26, .f32⟩ : BufTy).Contents (Elt F) → (⟨S_, .f32⟩ : BufTy).Contents (Elt F) → (⟨S32x2018x26, .f32⟩ : BufTy).Contents (Elt F)),
    unary main_v0 main_v1 ((extractStridedSlice S32x2000x26 ![0, 0, 0] · slices_S32x2018x26_S32x2000x26_0_0_0) : (⟨S32x2018x26, .f32⟩ : BufTy).Contents (Elt F) → (⟨S32x2000x26, .f32⟩ : BufTy).Contents (Elt F)),
    unary main_v0 main_v2 ((extractStridedSlice S32x2000x26 ![0, 1, 0] · slices_S32x2018x26_S32x2000x26_0_1_0) : (⟨S32x2018x26, .f32⟩ : BufTy).Contents (Elt F) → (⟨S32x2000x26, .f32⟩ : BufTy).Contents (Elt F)),
    unary main_v0 main_v3 ((extractStridedSlice S32x2000x26 ![0, 2, 0] · slices_S32x2018x26_S32x2000x26_0_2_0) : (⟨S32x2018x26, .f32⟩ : BufTy).Contents (Elt F) → (⟨S32x2000x26, .f32⟩ : BufTy).Contents (Elt F)),
    unary main_v0 main_v4 ((extractStridedSlice S32x2000x26 ![0, 3, 0] · slices_S32x2018x26_S32x2000x26_0_3_0) : (⟨S32x2018x26, .f32⟩ : BufTy).Contents (Elt F) → (⟨S32x2000x26, .f32⟩ : BufTy).Contents (Elt F)),
    unary main_v0 main_v5 ((extractStridedSlice S32x2000x26 ![0, 4, 0] · slices_S32x2018x26_S32x2000x26_0_4_0) : (⟨S32x2018x26, .f32⟩ : BufTy).Contents (Elt F) → (⟨S32x2000x26, .f32⟩ : BufTy).Contents (Elt F)),
    unary main_v0 main_v6 ((extractStridedSlice S32x2000x26 ![0, 5, 0] · slices_S32x2018x26_S32x2000x26_0_5_0) : (⟨S32x2018x26, .f32⟩ : BufTy).Contents (Elt F) → (⟨S32x2000x26, .f32⟩ : BufTy).Contents (Elt F)),
    unary main_v0 main_v7 ((extractStridedSlice S32x2000x26 ![0, 6, 0] · slices_S32x2018x26_S32x2000x26_0_6_0) : (⟨S32x2018x26, .f32⟩ : BufTy).Contents (Elt F) → (⟨S32x2000x26, .f32⟩ : BufTy).Contents (Elt F)),
    unary main_v0 main_v8 ((extractStridedSlice S32x2000x26 ![0, 7, 0] · slices_S32x2018x26_S32x2000x26_0_7_0) : (⟨S32x2018x26, .f32⟩ : BufTy).Contents (Elt F) → (⟨S32x2000x26, .f32⟩ : BufTy).Contents (Elt F)),
    unary main_v0 main_v9 ((extractStridedSlice S32x2000x26 ![0, 8, 0] · slices_S32x2018x26_S32x2000x26_0_8_0) : (⟨S32x2018x26, .f32⟩ : BufTy).Contents (Elt F) → (⟨S32x2000x26, .f32⟩ : BufTy).Contents (Elt F)),
    unary main_v0 main_v10 ((extractStridedSlice S32x2000x26 ![0, 9, 0] · slices_S32x2018x26_S32x2000x26_0_9_0) : (⟨S32x2018x26, .f32⟩ : BufTy).Contents (Elt F) → (⟨S32x2000x26, .f32⟩ : BufTy).Contents (Elt F)),
    unary main_v0 main_v11 ((extractStridedSlice S32x2000x26 ![0, 10, 0] · slices_S32x2018x26_S32x2000x26_0_10_0) : (⟨S32x2018x26, .f32⟩ : BufTy).Contents (Elt F) → (⟨S32x2000x26, .f32⟩ : BufTy).Contents (Elt F)),
    unary main_v0 main_v12 ((extractStridedSlice S32x2000x26 ![0, 11, 0] · slices_S32x2018x26_S32x2000x26_0_11_0) : (⟨S32x2018x26, .f32⟩ : BufTy).Contents (Elt F) → (⟨S32x2000x26, .f32⟩ : BufTy).Contents (Elt F)),
    unary main_v0 main_v13 ((extractStridedSlice S32x2000x26 ![0, 12, 0] · slices_S32x2018x26_S32x2000x26_0_12_0) : (⟨S32x2018x26, .f32⟩ : BufTy).Contents (Elt F) → (⟨S32x2000x26, .f32⟩ : BufTy).Contents (Elt F)),
    unary main_v0 main_v14 ((extractStridedSlice S32x2000x26 ![0, 13, 0] · slices_S32x2018x26_S32x2000x26_0_13_0) : (⟨S32x2018x26, .f32⟩ : BufTy).Contents (Elt F) → (⟨S32x2000x26, .f32⟩ : BufTy).Contents (Elt F)),
    unary main_v0 main_v15 ((extractStridedSlice S32x2000x26 ![0, 14, 0] · slices_S32x2018x26_S32x2000x26_0_14_0) : (⟨S32x2018x26, .f32⟩ : BufTy).Contents (Elt F) → (⟨S32x2000x26, .f32⟩ : BufTy).Contents (Elt F)),
    unary main_v0 main_v16 ((extractStridedSlice S32x2000x26 ![0, 15, 0] · slices_S32x2018x26_S32x2000x26_0_15_0) : (⟨S32x2018x26, .f32⟩ : BufTy).Contents (Elt F) → (⟨S32x2000x26, .f32⟩ : BufTy).Contents (Elt F)),
    unary main_v0 main_v17 ((extractStridedSlice S32x2000x26 ![0, 16, 0] · slices_S32x2018x26_S32x2000x26_0_16_0) : (⟨S32x2018x26, .f32⟩ : BufTy).Contents (Elt F) → (⟨S32x2000x26, .f32⟩ : BufTy).Contents (Elt F)),
    unary main_v0 main_v18 ((extractStridedSlice S32x2000x26 ![0, 17, 0] · slices_S32x2018x26_S32x2000x26_0_17_0) : (⟨S32x2018x26, .f32⟩ : BufTy).Contents (Elt F) → (⟨S32x2000x26, .f32⟩ : BufTy).Contents (Elt F)),
    unary main_v0 main_v19 ((extractStridedSlice S32x2000x26 ![0, 18, 0] · slices_S32x2018x26_S32x2000x26_0_18_0) : (⟨S32x2018x26, .f32⟩ : BufTy).Contents (Elt F) → (⟨S32x2000x26, .f32⟩ : BufTy).Contents (Elt F)),
    unary main_v1 main_v20 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v2 main_v21 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v3 main_v22 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v4 main_v23 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v5 main_v24 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v6 main_v25 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v7 main_v26 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v8 main_v27 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v9 main_v28 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v10 main_v29 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v11 main_v30 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v12 main_v31 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v13 main_v32 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v14 main_v33 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v15 main_v34 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v16 main_v35 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v17 main_v36 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v18 main_v37 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v19 main_v38 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    nary ![main_v20, main_v21, main_v22, main_v23, main_v24, main_v25, main_v26, main_v27, main_v28, main_v29, main_v30, main_v31, main_v32, main_v33, main_v34, main_v35] main_v39 (fun u => concatenate S32x2000x16x26 2 [⟨S32x2000x1x26, u 0⟩, ⟨S32x2000x1x26, u 1⟩, ⟨S32x2000x1x26, u 2⟩, ⟨S32x2000x1x26, u 3⟩, ⟨S32x2000x1x26, u 4⟩, ⟨S32x2000x1x26, u 5⟩, ⟨S32x2000x1x26, u 6⟩, ⟨S32x2000x1x26, u 7⟩, ⟨S32x2000x1x26, u 8⟩, ⟨S32x2000x1x26, u 9⟩, ⟨S32x2000x1x26, u 10⟩, ⟨S32x2000x1x26, u 11⟩, ⟨S32x2000x1x26, u 12⟩, ⟨S32x2000x1x26, u 13⟩, ⟨S32x2000x1x26, u 14⟩, ⟨S32x2000x1x26, u 15⟩] concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2),
    nary ![main_v36, main_v37, main_v38] main_v40 (fun u => concatenate S32x2000x3x26 2 [⟨S32x2000x1x26, u 0⟩, ⟨S32x2000x1x26, u 1⟩, ⟨S32x2000x1x26, u 2⟩] concatenates_S32x2000x1x26_S32x2000x1x26_S32x2000x1x26_S32x2000x3x26_d2),
    binary main_v39 main_v40 main_v41 ((fun a b => concatenate S32x2000x19x26 2 [⟨S32x2000x16x26, a⟩, ⟨S32x2000x3x26, b⟩] concatenates_S32x2000x16x26_S32x2000x3x26_S32x2000x19x26_d2) : (⟨S32x2000x16x26, .f32⟩ : BufTy).Contents (Elt F) → (⟨S32x2000x3x26, .f32⟩ : BufTy).Contents (Elt F) → (⟨S32x2000x19x26, .f32⟩ : BufTy).Contents (Elt F)),
    reshape main_v41 main_v42 rfl shapeCasts_S32x2000x19x26_S32x2000x494 ]

set_option maxRecDepth 8192 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub ..⟩

/-- Every weakly fair execution of @main terminates, each TensorCore buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefResult.lean ====
/-
  The reference's result as one term of the input, and that term read at an index.

  With `P` the padded input ([32, 2018, 26]), window `w` is the slice `P[:, w : w + 2000, :]` given a unit window axis
  ([32, 2000, 1, 26]): at `(b, t, 0, c)` it is `P (b, w + t, c)`. The 19 windows are joined along the window axis — the
  first 16, the last 3, then the two groups — into [32, 2000, 19, 26], which at `(b, t, w, c)` is window `w` there,
  `P (b, w + t, c)`; the join of equal unit-extent pieces reads the piece its window coordinate names. The result is that
  array reshaped to [32, 2000, 494]: row-major, column `j` of the result is window `j / 26`, feature `j mod 26`. So the
  result at `(b, t, j)` is `P (b, t + j / 26, j mod 26)`: the unfolded array of `P`.
-/
import proofs.«112819_j5377299054741_2_alg».proof.Proof.Gen.ReferenceIdeal
import proofs.«112819_j5377299054741_2_alg».proof.Proof.Windows
import Idealize.ShloMosaic.Lib.Pipeline.Value

set_option maxRecDepth 16384

noncomputable section

namespace Cert.ReferenceIdeal.RefResult

open Cert.ReferenceIdeal Cert.ReferenceIdeal.Gen Idealize.ShloMosaic

variable {F : FTy → Type} [FloatOps F]

/-! ## The term -/

/-- The padded input: 9 frames of the padding value (the integer 0 converted to a float) before and after each sequence. -/
def padded (x : S32x2000x26.Idx → Elt F .f32) : S32x2018x26.Idx → Elt F .f32 :=
  pad S32x2018x26 ![0, 9, 0] ![0, 9, 0] ![0, 0, 0] x (sitofp .f32 (constantI S_ 32 0#32)) pads_S32x2000x26_S32x2018x26_000_990_000 h_S_

/-- Window `w` of a padded array: 2000 frames from frame `w`, with a unit window axis. -/
def window (P : S32x2018x26.Idx → Elt F .f32) (w : Nat) (h : S32x2018x26.Slices ![0, w, 0] S32x2000x26) : S32x2000x1x26.Idx → Elt F .f32 :=
  broadcastInDim S32x2000x1x26 ![0, 1, 3] bcast_S32x2000x26_S32x2000x1x26_0_1_3 (extractStridedSlice S32x2000x26 ![0, w, 0] P h)

/-- Windows 0 … 15 joined along the window axis. -/
def first16 (P : S32x2018x26.Idx → Elt F .f32) : S32x2000x16x26.Idx → Elt F .f32 :=
  concatenate S32x2000x16x26 2 [⟨S32x2000x1x26, window P 0 slices_S32x2018x26_S32x2000x26_0_0_0⟩, ⟨S32x2000x1x26, window P 1 slices_S32x2018x26_S32x2000x26_0_1_0⟩, ⟨S32x2000x1x26, window P 2 slices_S32x2018x26_S32x2000x26_0_2_0⟩, ⟨S32x2000x1x26, window P 3 slices_S32x2018x26_S32x2000x26_0_3_0⟩, ⟨S32x2000x1x26, window P 4 slices_S32x2018x26_S32x2000x26_0_4_0⟩, ⟨S32x2000x1x26, window P 5 slices_S32x2018x26_S32x2000x26_0_5_0⟩, ⟨S32x2000x1x26, window P 6 slices_S32x2018x26_S32x2000x26_0_6_0⟩, ⟨S32x2000x1x26, window P 7 slices_S32x2018x26_S32x2000x26_0_7_0⟩, ⟨S32x2000x1x26, window P 8 slices_S32x2018x26_S32x2000x26_0_8_0⟩, ⟨S32x2000x1x26, window P 9 slices_S32x2018x26_S32x2000x26_0_9_0⟩, ⟨S32x2000x1x26, window P 10 slices_S32x2018x26_S32x2000x26_0_10_0⟩, ⟨S32x2000x1x26, window P 11 slices_S32x2018x26_S32x2000x26_0_11_0⟩, ⟨S32x2000x1x26, window P 12 slices_S32x2018x26_S32x2000x26_0_12_0⟩, ⟨S32x2000x1x26, window P 13 slices_S32x2018x26_S32x2000x26_0_13_0⟩, ⟨S32x2000x1x26, window P 14 slices_S32x2018x26_S32x2000x26_0_14_0⟩, ⟨S32x2000x1x26, window P 15 slices_S32x2018x26_S32x2000x26_0_15_0⟩] concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2

/-- Windows 16, 17, 18 joined along the window axis. -/
def last3 (P : S32x2018x26.Idx → Elt F .f32) : S32x2000x3x26.Idx → Elt F .f32 :=
  concatenate S32x2000x3x26 2 [⟨S32x2000x1x26, window P 16 slices_S32x2018x26_S32x2000x26_0_16_0⟩, ⟨S32x2000x1x26, window P 17 slices_S32x2018x26_S32x2000x26_0_17_0⟩, ⟨S32x2000x1x26, window P 18 slices_S32x2018x26_S32x2000x26_0_18_0⟩] concatenates_S32x2000x1x26_S32x2000x1x26_S32x2000x1x26_S32x2000x3x26_d2

/-- All 19 windows side by side along the window axis. -/
def stacked (P : S32x2018x26.Idx → Elt F .f32) : S32x2000x19x26.Idx → Elt F .f32 :=
  concatenate S32x2000x19x26 2 [⟨S32x2000x16x26, first16 P⟩, ⟨S32x2000x3x26, last3 P⟩] concatenates_S32x2000x16x26_S32x2000x3x26_S32x2000x19x26_d2

/-- The reference's result: the stack of windows with the window and feature axes merged. -/
def result (x : S32x2000x26.Idx → Elt F .f32) : S32x2000x494.Idx → Elt F .f32 :=
  shapeCast S32x2000x494 (stacked (padded x)) shapeCasts_S32x2000x19x26_S32x2000x494

/-! ## Read at an index -/

/-- A slice of 2000 frames from frame `w ≤ 18` lies inside the 2018 padded frames. -/
theorem slice_ok (w : Nat) (hw : w ≤ 18) : S32x2018x26.Slices ![0, w, 0] S32x2000x26 :=
  ⟨rfl, fun a => match a with
    | ⟨0, _⟩ => by show 0 + 32 ≤ 32; omega
    | ⟨1, _⟩ => by show w + 2000 ≤ 2018; omega
    | ⟨2, _⟩ => by show 0 + 26 ≤ 26; omega⟩

/-- Window `w` at sequence `b`, frame `t`, feature `c` is the padded array at frame `w + t`. -/
theorem window_apply (P : S32x2018x26.Idx → Elt F .f32) (w : Nat) (h : S32x2018x26.Slices ![0, w, 0] S32x2000x26)
    (i : S32x2000x1x26.Idx) (k : S32x2018x26.Idx)
    (k0 : (k 0).val = (i 0).val) (k1 : (k 1).val = w + (i 1).val) (k2 : (k 2).val = (i 3).val) :
    window P w h i = P k := by
  unfold window
  let mid : S32x2000x26.Idx := fun a => match a with
    | ⟨0, _⟩ => ⟨(i 0).val, (i 0).isLt⟩
    | ⟨1, _⟩ => ⟨(i 1).val, (i 1).isLt⟩
    | ⟨2, _⟩ => ⟨(i 3).val, (i 3).isLt⟩
  refine (broadcastInDim_apply _ bcast_S32x2000x26_S32x2000x1x26_0_1_3 _ i mid (fun a => ?_)).trans
    (extractStridedSlice_apply ![0, w, 0] P h mid k (fun a => ?_))
  · match a with
    | ⟨0, _⟩ => show (i 0).val = if (32 : Nat) = 1 then 0 else (i 0).val; rw [if_neg (by decide)]
    | ⟨1, _⟩ => show (i 1).val = if (2000 : Nat) = 1 then 0 else (i 1).val; rw [if_neg (by decide)]
    | ⟨2, _⟩ => show (i 3).val = if (26 : Nat) = 1 then 0 else (i 3).val; rw [if_neg (by decide)]
  · match a with
    | ⟨0, _⟩ => show (k 0).val = 0 + (i 0).val; omega
    | ⟨1, _⟩ => show (k 1).val = w + (i 1).val; omega
    | ⟨2, _⟩ => show (k 2).val = 0 + (i 3).val; omega

/-- An index of a stack of `n` windows moved to the one window of a single slice. -/
abbrev single {n : Nat} (j : (⟨4, ![32, 2000, n, 26]⟩ : Shape).Idx) : S32x2000x1x26.Idx := fun a => match a with
  | ⟨0, _⟩ => ⟨(j 0).val, (j 0).isLt⟩
  | ⟨1, _⟩ => ⟨(j 1).val, (j 1).isLt⟩
  | ⟨2, _⟩ => ⟨0, Nat.one_pos⟩
  | ⟨3, _⟩ => ⟨(j 3).val, (j 3).isLt⟩

theorem single_off {n : Nat} (j : (⟨4, ![32, 2000, n, 26]⟩ : Shape).Idx) :
    ∀ b : Fin 4, b.val ≠ 2 → ((single j) b).val = (j b).val := fun b hb => by
  match b with
  | ⟨0, _⟩ => rfl
  | ⟨1, _⟩ => rfl
  | ⟨2, _⟩ => exact absurd rfl hb
  | ⟨3, _⟩ => rfl

/-- The first 16 windows as a family indexed by the window number. -/
theorem first16_family (P : S32x2018x26.Idx → Elt F .f32) :
    first16 P = concatenate S32x2000x16x26 2
      (List.ofFn fun n : Fin 16 => (⟨S32x2000x1x26, window P n.val (slice_ok n.val (by omega))⟩ : (s : Shape) × (s.Idx → Elt F .f32)))
      concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2 := rfl

/-- The last 3 windows as a family indexed by the window number less 16. -/
theorem last3_family (P : S32x2018x26.Idx → Elt F .f32) :
    last3 P = concatenate S32x2000x3x26 2
      (List.ofFn fun n : Fin 3 => (⟨S32x2000x1x26, window P (16 + n.val) (slice_ok (16 + n.val) (by omega))⟩ : (s : Shape) × (s.Idx → Elt F .f32)))
      concatenates_S32x2000x1x26_S32x2000x1x26_S32x2000x1x26_S32x2000x3x26_d2 := rfl

/-- The join of the first 16 windows at `(b, t, w, c)` is the padded array at `(b, w + t, c)`. -/
theorem first16_apply (P : S32x2018x26.Idx → Elt F .f32) (j : S32x2000x16x26.Idx) (k : S32x2018x26.Idx)
    (k0 : (k 0).val = (j 0).val) (k1 : (k 1).val = (j 2).val + (j 1).val) (k2 : (k 2).val = (j 3).val) :
    first16 P j = P k := by
  rw [first16_family]
  refine (concatenate_ofFn_unit_apply (t := S32x2000x16x26) (s₁ := S32x2000x1x26) (2 : Fin 4)
    (fun n : Fin 16 => window P n.val (slice_ok n.val (by omega))) _ (by rfl) (by rfl) j ⟨(j 2).val, (j 2).isLt⟩ (by rfl) (single j)
    (fun b hb => single_off j b (fun e => hb (Fin.ext e)))).trans ?_
  exact window_apply P _ _ (single j) k k0 k1 k2

/-- The join of the last 3 windows at `(b, t, w, c)` is the padded array at `(b, 16 + w + t, c)`. -/
theorem last3_apply (P : S32x2018x26.Idx → Elt F .f32) (j : S32x2000x3x26.Idx) (k : S32x2018x26.Idx)
    (k0 : (k 0).val = (j 0).val) (k1 : (k 1).val = 16 + (j 2).val + (j 1).val) (k2 : (k 2).val = (j 3).val) :
    last3 P j = P k := by
  rw [last3_family]
  refine (concatenate_ofFn_unit_apply (t := S32x2000x3x26) (s₁ := S32x2000x1x26) (2 : Fin 4)
    (fun n : Fin 3 => window P (16 + n.val) (slice_ok (16 + n.val) (by omega))) _ (by rfl) (by rfl) j ⟨(j 2).val, (j 2).isLt⟩ (by rfl) (single j)
    (fun b hb => single_off j b (fun e => hb (Fin.ext e)))).trans ?_
  exact window_apply P _ _ (single j) k k0 k1 k2

/-- The stack of all 19 windows at `(b, t, w, c)` is the padded array at `(b, w + t, c)`. -/
theorem stacked_apply (P : S32x2018x26.Idx → Elt F .f32) (j : S32x2000x19x26.Idx) (k : S32x2018x26.Idx)
    (k0 : (k 0).val = (j 0).val) (k1 : (k 1).val = (j 2).val + (j 1).val) (k2 : (k 2).val = (j 3).val) :
    stacked P j = P k := by
  have hj : (j 2).val < 19 := (j 2).isLt
  unfold stacked
  by_cases hlt : (j 2).val < 16
  · let j' : S32x2000x16x26.Idx := fun a => match a with
      | ⟨0, _⟩ => ⟨(j 0).val, (j 0).isLt⟩
      | ⟨1, _⟩ => ⟨(j 1).val, (j 1).isLt⟩
      | ⟨2, _⟩ => ⟨(j 2).val, hlt⟩
      | ⟨3, _⟩ => ⟨(j 3).val, (j 3).isLt⟩
    refine (concatenate_pair_apply_left (t := S32x2000x19x26) (s₁ := S32x2000x16x26) (s₂ := S32x2000x3x26) (2 : Fin 4) (first16 P) (last3 P)
      concatenates_S32x2000x16x26_S32x2000x3x26_S32x2000x19x26_d2 j (by rfl) j'
      (fun b => by match b with
        | ⟨0, _⟩ => rfl
        | ⟨1, _⟩ => rfl
        | ⟨2, _⟩ => rfl
        | ⟨3, _⟩ => rfl)).trans ?_
    exact first16_apply P j' k k0 k1 k2
  · let j' : S32x2000x3x26.Idx := fun a => match a with
      | ⟨0, _⟩ => ⟨(j 0).val, (j 0).isLt⟩
      | ⟨1, _⟩ => ⟨(j 1).val, (j 1).isLt⟩
      | ⟨2, _⟩ => ⟨(j 2).val - 16, by show (j 2).val - 16 < 3; omega⟩
      | ⟨3, _⟩ => ⟨(j 3).val, (j 3).isLt⟩
    refine (concatenate_pair_apply_right (t := S32x2000x19x26) (s₁ := S32x2000x16x26) (s₂ := S32x2000x3x26) (2 : Fin 4) (first16 P) (last3 P)
      concatenates_S32x2000x16x26_S32x2000x3x26_S32x2000x19x26_d2 j (by rfl) (by rfl) j'
      (fun b hb => by match b with
        | ⟨0, _⟩ => rfl
        | ⟨1, _⟩ => rfl
        | ⟨2, _⟩ => exact absurd (Fin.ext rfl) hb
        | ⟨3, _⟩ => rfl)
      (by show (j 2).val - 16 + 16 = (j 2).val; omega)).trans ?_
    exact last3_apply P j' k k0 (by show (k 1).val = 16 + ((j 2).val - 16) + (j 1).val; omega) k2

/-- The reference's result is the unfolded array of the padded input. -/
theorem result_eq (x : S32x2000x26.Idx → Elt F .f32) : result x = Windows.unfold 32 (padded x) := by
  funext i
  have h0 : (i 0).val < 32 := (i 0).isLt
  have h1 : (i 1).val < 2000 := (i 1).isLt
  have h2 : (i 2).val < 494 := (i 2).isLt
  let j : S32x2000x19x26.Idx := fun a => match a with
    | ⟨0, _⟩ => ⟨(i 0).val, (i 0).isLt⟩
    | ⟨1, _⟩ => ⟨(i 1).val, (i 1).isLt⟩
    | ⟨2, _⟩ => ⟨(i 2).val / 26, by show (i 2).val / 26 < 19; omega⟩
    | ⟨3, _⟩ => ⟨(i 2).val % 26, by show (i 2).val % 26 < 26; omega⟩
  unfold result
  refine (shapeCast_apply (stacked (padded x)) shapeCasts_S32x2000x19x26_S32x2000x494 i j ?_).trans ?_
  · rewrite [Shape.rowMajor_val_four, Shape.rowMajor_val_three]
    show (((i 0).val * 2000 + (i 1).val) * 19 + (i 2).val / 26) * 26 + (i 2).val % 26 = ((i 0).val * 2000 + (i 1).val) * 494 + (i 2).val
    omega
  · rw [Windows.unfold_apply]
    exact stacked_apply (padded x) j (Windows.src 32 i) (Windows.src_val0 32 i)
      (by rw [Windows.src_val1]; show (i 1).val + (i 2).val / 26 = (i 2).val / 26 + (i 1).val; omega)
      (Windows.src_val2 32 i)

end Cert.ReferenceIdeal.RefResult

end
-- ==== Proof.LibNaryLiteral.lean ====
/-
  The result of a host operation with a literal family of 3, or of 16, operand references.

  An operation that reads a family of operands `xs : Fin n → reference` leaves its result buffer at its function of the
  family of the operands' contents, `fun k => (contents of xs k)`. When the family is a literal, `![x0, …]`, that
  family of contents is, entry by entry, the literal family of the contents at `x0`, …: written that way, each operand's
  contents stands at its own reference, outside any binder, where it can be rewritten in turn. The library has this for a
  family of four; here it is for three and for sixteen (a join of 16 pieces). This holds over any signature and any
  value type.
-/
import Idealize.ShloMosaic.Lib.StableHlo.Run

noncomputable section

namespace Cert.Lib.NaryLiteral

open Idealize.ShloMosaic Idealize.ShloMosaic.StableHlo

variable {τ : Topo} {sig : RefSig} {Val : EltTy → Type}

/-- `nary` over a literal family of 3 references: the result with each operand's contents at its own reference. -/
theorem nary3_result {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same with the result reference un-indexed, for `simp`. -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F

/-- `nary` over a literal family of 16 references: the result with each operand's contents at its own reference. -/
theorem nary16_result {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result]; congr 1; funext k; fin_cases k <;> rfl

/-- The same with the result reference un-indexed, for `simp`. -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) :=
  nary16_result f hxs hy F

end Cert.Lib.NaryLiteral

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference's run, read: it ends with the result buffer at `RefResult.result` of the input and the input unchanged.

  What a buffer holds after a line of host operations is a computation: going back through the line, an operation either
  writes the buffer read — then the value is its function of what its operands held before it — or leaves it. The line is
  read in two stretches. After the first 41 operations (the pad, the 19 slices, the 19 unit window axes), the buffer of
  window `w` holds `RefResult.window` of the padded input at `w`: one statement per window, each a walk back through
  that stretch. The last four operations (the join of the first 16 windows, of the last 3, of the two groups, and the
  reshape) are then read over whatever the first stretch left, the two joins of a literal family of operands by the
  literal-family form of their result; with the 19 window buffers rewritten, the term is `RefResult.result`.
-/
import proofs.«112819_j5377299054741_2_alg».proof.Proof.RefOps
import proofs.«112819_j5377299054741_2_alg».proof.Proof.RefResult
import proofs.«112819_j5377299054741_2_alg».proof.Proof.LibNaryLiteral
import proofs.«112819_j5377299054741_2_alg».proof.Proof.LibAfterAppend

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line in two stretches -/

/-- The pad, the 19 slices and the 19 unit window axes: @main's first 41 operations. -/
abbrev head : List (HloOp τ sig (Elt F)) :=
  [ nullary main_c (constantI S_ 32 0#32),
    unary main_c main_call0_v0 (sitofp .f32 : (⟨S_, .i32⟩ : BufTy).Contents (Elt F) → (⟨S_, .f32⟩ : BufTy).Contents (Elt F)),
    binary main_arg0 main_call0_v0 main_v0 ((fun x v => pad S32x2018x26 ![0, 9, 0] ![0, 9, 0] ![0, 0, 0] x v pads_S32x2000x26_S32x2018x26_000_990_000 h_S_) : (⟨S32x2000x26, .f32⟩ : BufTy).Contents (Elt F) → (⟨S_, .f32⟩ : BufTy).Contents (Elt F) → (⟨S32x2018x26, .f32⟩ : BufTy).Contents (Elt F)),
    unary main_v0 main_v1 ((extractStridedSlice S32x2000x26 ![0, 0, 0] · slices_S32x2018x26_S32x2000x26_0_0_0) : (⟨S32x2018x26, .f32⟩ : BufTy).Contents (Elt F) → (⟨S32x2000x26, .f32⟩ : BufTy).Contents (Elt F)),
    unary main_v0 main_v2 ((extractStridedSlice S32x2000x26 ![0, 1, 0] · slices_S32x2018x26_S32x2000x26_0_1_0) : (⟨S32x2018x26, .f32⟩ : BufTy).Contents (Elt F) → (⟨S32x2000x26, .f32⟩ : BufTy).Contents (Elt F)),
    unary main_v0 main_v3 ((extractStridedSlice S32x2000x26 ![0, 2, 0] · slices_S32x2018x26_S32x2000x26_0_2_0) : (⟨S32x2018x26, .f32⟩ : BufTy).Contents (Elt F) → (⟨S32x2000x26, .f32⟩ : BufTy).Contents (Elt F)),
    unary main_v0 main_v4 ((extractStridedSlice S32x2000x26 ![0, 3, 0] · slices_S32x2018x26_S32x2000x26_0_3_0) : (⟨S32x2018x26, .f32⟩ : BufTy).Contents (Elt F) → (⟨S32x2000x26, .f32⟩ : BufTy).Contents (Elt F)),
    unary main_v0 main_v5 ((extractStridedSlice S32x2000x26 ![0, 4, 0] · slices_S32x2018x26_S32x2000x26_0_4_0) : (⟨S32x2018x26, .f32⟩ : BufTy).Contents (Elt F) → (⟨S32x2000x26, .f32⟩ : BufTy).Contents (Elt F)),
    unary main_v0 main_v6 ((extractStridedSlice S32x2000x26 ![0, 5, 0] · slices_S32x2018x26_S32x2000x26_0_5_0) : (⟨S32x2018x26, .f32⟩ : BufTy).Contents (Elt F) → (⟨S32x2000x26, .f32⟩ : BufTy).Contents (Elt F)),
    unary main_v0 main_v7 ((extractStridedSlice S32x2000x26 ![0, 6, 0] · slices_S32x2018x26_S32x2000x26_0_6_0) : (⟨S32x2018x26, .f32⟩ : BufTy).Contents (Elt F) → (⟨S32x2000x26, .f32⟩ : BufTy).Contents (Elt F)),
    unary main_v0 main_v8 ((extractStridedSlice S32x2000x26 ![0, 7, 0] · slices_S32x2018x26_S32x2000x26_0_7_0) : (⟨S32x2018x26, .f32⟩ : BufTy).Contents (Elt F) → (⟨S32x2000x26, .f32⟩ : BufTy).Contents (Elt F)),
    unary main_v0 main_v9 ((extractStridedSlice S32x2000x26 ![0, 8, 0] · slices_S32x2018x26_S32x2000x26_0_8_0) : (⟨S32x2018x26, .f32⟩ : BufTy).Contents (Elt F) → (⟨S32x2000x26, .f32⟩ : BufTy).Contents (Elt F)),
    unary main_v0 main_v10 ((extractStridedSlice S32x2000x26 ![0, 9, 0] · slices_S32x2018x26_S32x2000x26_0_9_0) : (⟨S32x2018x26, .f32⟩ : BufTy).Contents (Elt F) → (⟨S32x2000x26, .f32⟩ : BufTy).Contents (Elt F)),
    unary main_v0 main_v11 ((extractStridedSlice S32x2000x26 ![0, 10, 0] · slices_S32x2018x26_S32x2000x26_0_10_0) : (⟨S32x2018x26, .f32⟩ : BufTy).Contents (Elt F) → (⟨S32x2000x26, .f32⟩ : BufTy).Contents (Elt F)),
    unary main_v0 main_v12 ((extractStridedSlice S32x2000x26 ![0, 11, 0] · slices_S32x2018x26_S32x2000x26_0_11_0) : (⟨S32x2018x26, .f32⟩ : BufTy).Contents (Elt F) → (⟨S32x2000x26, .f32⟩ : BufTy).Contents (Elt F)),
    unary main_v0 main_v13 ((extractStridedSlice S32x2000x26 ![0, 12, 0] · slices_S32x2018x26_S32x2000x26_0_12_0) : (⟨S32x2018x26, .f32⟩ : BufTy).Contents (Elt F) → (⟨S32x2000x26, .f32⟩ : BufTy).Contents (Elt F)),
    unary main_v0 main_v14 ((extractStridedSlice S32x2000x26 ![0, 13, 0] · slices_S32x2018x26_S32x2000x26_0_13_0) : (⟨S32x2018x26, .f32⟩ : BufTy).Contents (Elt F) → (⟨S32x2000x26, .f32⟩ : BufTy).Contents (Elt F)),
    unary main_v0 main_v15 ((extractStridedSlice S32x2000x26 ![0, 14, 0] · slices_S32x2018x26_S32x2000x26_0_14_0) : (⟨S32x2018x26, .f32⟩ : BufTy).Contents (Elt F) → (⟨S32x2000x26, .f32⟩ : BufTy).Contents (Elt F)),
    unary main_v0 main_v16 ((extractStridedSlice S32x2000x26 ![0, 15, 0] · slices_S32x2018x26_S32x2000x26_0_15_0) : (⟨S32x2018x26, .f32⟩ : BufTy).Contents (Elt F) → (⟨S32x2000x26, .f32⟩ : BufTy).Contents (Elt F)),
    unary main_v0 main_v17 ((extractStridedSlice S32x2000x26 ![0, 16, 0] · slices_S32x2018x26_S32x2000x26_0_16_0) : (⟨S32x2018x26, .f32⟩ : BufTy).Contents (Elt F) → (⟨S32x2000x26, .f32⟩ : BufTy).Contents (Elt F)),
    unary main_v0 main_v18 ((extractStridedSlice S32x2000x26 ![0, 17, 0] · slices_S32x2018x26_S32x2000x26_0_17_0) : (⟨S32x2018x26, .f32⟩ : BufTy).Contents (Elt F) → (⟨S32x2000x26, .f32⟩ : BufTy).Contents (Elt F)),
    unary main_v0 main_v19 ((extractStridedSlice S32x2000x26 ![0, 18, 0] · slices_S32x2018x26_S32x2000x26_0_18_0) : (⟨S32x2018x26, .f32⟩ : BufTy).Contents (Elt F) → (⟨S32x2000x26, .f32⟩ : BufTy).Contents (Elt F)),
    unary main_v1 main_v20 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v2 main_v21 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v3 main_v22 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v4 main_v23 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v5 main_v24 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v6 main_v25 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v7 main_v26 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v8 main_v27 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v9 main_v28 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v10 main_v29 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v11 main_v30 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v12 main_v31 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v13 main_v32 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v14 main_v33 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v15 main_v34 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v16 main_v35 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v17 main_v36 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v18 main_v37 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)),
    unary main_v19 main_v38 (broadcastInDim S32x2000x1x26 ![0, 1, 3] bcast_S32x2000x26_S32x2000x1x26_0_1_3 : (⟨S32x2000x26, .f32⟩ : BufTy).Contents (Elt F) → (⟨S32x2000x1x26, .f32⟩ : BufTy).Contents (Elt F)) ]

/-- The three joins and the reshape: @main's last 4 operations. -/
abbrev tail : List (HloOp τ sig (Elt F)) :=
  [ nary ![main_v20, main_v21, main_v22, main_v23, main_v24, main_v25, main_v26, main_v27, main_v28, main_v29, main_v30, main_v31, main_v32, main_v33, main_v34, main_v35] main_v39 (fun u => concatenate S32x2000x16x26 2 [⟨S32x2000x1x26, u 0⟩, ⟨S32x2000x1x26, u 1⟩, ⟨S32x2000x1x26, u 2⟩, ⟨S32x2000x1x26, u 3⟩, ⟨S32x2000x1x26, u 4⟩, ⟨S32x2000x1x26, u 5⟩, ⟨S32x2000x1x26, u 6⟩, ⟨S32x2000x1x26, u 7⟩, ⟨S32x2000x1x26, u 8⟩, ⟨S32x2000x1x26, u 9⟩, ⟨S32x2000x1x26, u 10⟩, ⟨S32x2000x1x26, u 11⟩, ⟨S32x2000x1x26, u 12⟩, ⟨S32x2000x1x26, u 13⟩, ⟨S32x2000x1x26, u 14⟩, ⟨S32x2000x1x26, u 15⟩] concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2),
    nary ![main_v36, main_v37, main_v38] main_v40 (fun u => concatenate S32x2000x3x26 2 [⟨S32x2000x1x26, u 0⟩, ⟨S32x2000x1x26, u 1⟩, ⟨S32x2000x1x26, u 2⟩] concatenates_S32x2000x1x26_S32x2000x1x26_S32x2000x1x26_S32x2000x3x26_d2),
    binary main_v39 main_v40 main_v41 ((fun a b => concatenate S32x2000x19x26 2 [⟨S32x2000x16x26, a⟩, ⟨S32x2000x3x26, b⟩] concatenates_S32x2000x16x26_S32x2000x3x26_S32x2000x19x26_d2) : (⟨S32x2000x16x26, .f32⟩ : BufTy).Contents (Elt F) → (⟨S32x2000x3x26, .f32⟩ : BufTy).Contents (Elt F) → (⟨S32x2000x19x26, .f32⟩ : BufTy).Contents (Elt F)),
    reshape main_v41 main_v42 rfl shapeCasts_S32x2000x19x26_S32x2000x494 ]

theorem ops_split : (ops : List (HloOp τ sig (Elt F))) = head ++ tail := rfl

/-! ## After the first stretch, window `w`'s buffer holds window `w` of the padded input -/

theorem window_fold_0 (V : Valuation τ sig (Elt F)) :
    after head V (main_v20 : DevRef τ sig)
      = RefResult.window (RefResult.padded (V (main_arg0 : DevRef τ sig))) 0 slices_S32x2018x26_S32x2000x26_0_0_0 := by
  after_results
  rfl

theorem window_fold_1 (V : Valuation τ sig (Elt F)) :
    after head V (main_v21 : DevRef τ sig)
      = RefResult.window (RefResult.padded (V (main_arg0 : DevRef τ sig))) 1 slices_S32x2018x26_S32x2000x26_0_1_0 := by
  after_results
  rfl

theorem window_fold_2 (V : Valuation τ sig (Elt F)) :
    after head V (main_v22 : DevRef τ sig)
      = RefResult.window (RefResult.padded (V (main_arg0 : DevRef τ sig))) 2 slices_S32x2018x26_S32x2000x26_0_2_0 := by
  after_results
  rfl

theorem window_fold_3 (V : Valuation τ sig (Elt F)) :
    after head V (main_v23 : DevRef τ sig)
      = RefResult.window (RefResult.padded (V (main_arg0 : DevRef τ sig))) 3 slices_S32x2018x26_S32x2000x26_0_3_0 := by
  after_results
  rfl

theorem window_fold_4 (V : Valuation τ sig (Elt F)) :
    after head V (main_v24 : DevRef τ sig)
      = RefResult.window (RefResult.padded (V (main_arg0 : DevRef τ sig))) 4 slices_S32x2018x26_S32x2000x26_0_4_0 := by
  after_results
  rfl

theorem window_fold_5 (V : Valuation τ sig (Elt F)) :
    after head V (main_v25 : DevRef τ sig)
      = RefResult.window (RefResult.padded (V (main_arg0 : DevRef τ sig))) 5 slices_S32x2018x26_S32x2000x26_0_5_0 := by
  after_results
  rfl

theorem window_fold_6 (V : Valuation τ sig (Elt F)) :
    after head V (main_v26 : DevRef τ sig)
      = RefResult.window (RefResult.padded (V (main_arg0 : DevRef τ sig))) 6 slices_S32x2018x26_S32x2000x26_0_6_0 := by
  after_results
  rfl

theorem window_fold_7 (V : Valuation τ sig (Elt F)) :
    after head V (main_v27 : DevRef τ sig)
      = RefResult.window (RefResult.padded (V (main_arg0 : DevRef τ sig))) 7 slices_S32x2018x26_S32x2000x26_0_7_0 := by
  after_results
  rfl

theorem window_fold_8 (V : Valuation τ sig (Elt F)) :
    after head V (main_v28 : DevRef τ sig)
      = RefResult.window (RefResult.padded (V (main_arg0 : DevRef τ sig))) 8 slices_S32x2018x26_S32x2000x26_0_8_0 := by
  after_results
  rfl

theorem window_fold_9 (V : Valuation τ sig (Elt F)) :
    after head V (main_v29 : DevRef τ sig)
      = RefResult.window (RefResult.padded (V (main_arg0 : DevRef τ sig))) 9 slices_S32x2018x26_S32x2000x26_0_9_0 := by
  after_results
  rfl

theorem window_fold_10 (V : Valuation τ sig (Elt F)) :
    after head V (main_v30 : DevRef τ sig)
      = RefResult.window (RefResult.padded (V (main_arg0 : DevRef τ sig))) 10 slices_S32x2018x26_S32x2000x26_0_10_0 := by
  after_results
  rfl

theorem window_fold_11 (V : Valuation τ sig (Elt F)) :
    after head V (main_v31 : DevRef τ sig)
      = RefResult.window (RefResult.padded (V (main_arg0 : DevRef τ sig))) 11 slices_S32x2018x26_S32x2000x26_0_11_0 := by
  after_results
  rfl

theorem window_fold_12 (V : Valuation τ sig (Elt F)) :
    after head V (main_v32 : DevRef τ sig)
      = RefResult.window (RefResult.padded (V (main_arg0 : DevRef τ sig))) 12 slices_S32x2018x26_S32x2000x26_0_12_0 := by
  after_results
  rfl

theorem window_fold_13 (V : Valuation τ sig (Elt F)) :
    after head V (main_v33 : DevRef τ sig)
      = RefResult.window (RefResult.padded (V (main_arg0 : DevRef τ sig))) 13 slices_S32x2018x26_S32x2000x26_0_13_0 := by
  after_results
  rfl

theorem window_fold_14 (V : Valuation τ sig (Elt F)) :
    after head V (main_v34 : DevRef τ sig)
      = RefResult.window (RefResult.padded (V (main_arg0 : DevRef τ sig))) 14 slices_S32x2018x26_S32x2000x26_0_14_0 := by
  after_results
  rfl

theorem window_fold_15 (V : Valuation τ sig (Elt F)) :
    after head V (main_v35 : DevRef τ sig)
      = RefResult.window (RefResult.padded (V (main_arg0 : DevRef τ sig))) 15 slices_S32x2018x26_S32x2000x26_0_15_0 := by
  after_results
  rfl

theorem window_fold_16 (V : Valuation τ sig (Elt F)) :
    after head V (main_v36 : DevRef τ sig)
      = RefResult.window (RefResult.padded (V (main_arg0 : DevRef τ sig))) 16 slices_S32x2018x26_S32x2000x26_0_16_0 := by
  after_results
  rfl

theorem window_fold_17 (V : Valuation τ sig (Elt F)) :
    after head V (main_v37 : DevRef τ sig)
      = RefResult.window (RefResult.padded (V (main_arg0 : DevRef τ sig))) 17 slices_S32x2018x26_S32x2000x26_0_17_0 := by
  after_results
  rfl

theorem window_fold_18 (V : Valuation τ sig (Elt F)) :
    after head V (main_v38 : DevRef τ sig)
      = RefResult.window (RefResult.padded (V (main_arg0 : DevRef τ sig))) 18 slices_S32x2018x26_S32x2000x26_0_18_0 := by
  after_results
  rfl

/-! ## The last stretch, over whatever the first left -/

/-- The results of the reshape, of the join of two and of the joins of a literal family of 16 and of 3, each at its own
    buffer, and a join's buffer left alone by the other join. -/
local macro "fold_tail" : tactic => `(tactic| (simp only [after_cons, after_nil]; repeat (first
      | rw [reshape_result] | rw [binary_result]
      | rw [Cert.Lib.NaryLiteral.nary16_result] | rw [Cert.Lib.NaryLiteral.nary3_result]
      | (rw [nary_result_ne]; rotate_left; decide))))

/-- After the last four operations the result buffer holds the reshaped join of the joins of the 19 window buffers. -/
theorem tail_fold (W : Valuation τ sig (Elt F)) :
    after tail W (main_v42 : DevRef τ sig) = shapeCast S32x2000x494 (concatenate S32x2000x19x26 2 [⟨S32x2000x16x26, concatenate S32x2000x16x26 2 [⟨S32x2000x1x26, W (main_v20 : DevRef τ sig)⟩, ⟨S32x2000x1x26, W (main_v21 : DevRef τ sig)⟩, ⟨S32x2000x1x26, W (main_v22 : DevRef τ sig)⟩, ⟨S32x2000x1x26, W (main_v23 : DevRef τ sig)⟩, ⟨S32x2000x1x26, W (main_v24 : DevRef τ sig)⟩, ⟨S32x2000x1x26, W (main_v25 : DevRef τ sig)⟩, ⟨S32x2000x1x26, W (main_v26 : DevRef τ sig)⟩, ⟨S32x2000x1x26, W (main_v27 : DevRef τ sig)⟩, ⟨S32x2000x1x26, W (main_v28 : DevRef τ sig)⟩, ⟨S32x2000x1x26, W (main_v29 : DevRef τ sig)⟩, ⟨S32x2000x1x26, W (main_v30 : DevRef τ sig)⟩, ⟨S32x2000x1x26, W (main_v31 : DevRef τ sig)⟩, ⟨S32x2000x1x26, W (main_v32 : DevRef τ sig)⟩, ⟨S32x2000x1x26, W (main_v33 : DevRef τ sig)⟩, ⟨S32x2000x1x26, W (main_v34 : DevRef τ sig)⟩, ⟨S32x2000x1x26, W (main_v35 : DevRef τ sig)⟩] concatenates_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x1x26_S32x2000x16x26_d2⟩, ⟨S32x2000x3x26, concatenate S32x2000x3x26 2 [⟨S32x2000x1x26, W (main_v36 : DevRef τ sig)⟩, ⟨S32x2000x1x26, W (main_v37 : DevRef τ sig)⟩, ⟨S32x2000x1x26, W (main_v38 : DevRef τ sig)⟩] concatenates_S32x2000x1x26_S32x2000x1x26_S32x2000x1x26_S32x2000x3x26_d2⟩] concatenates_S32x2000x16x26_S32x2000x3x26_S32x2000x19x26_d2) shapeCasts_S32x2000x19x26_S32x2000x494 := by
  fold_tail
  rfl

/-! ## The whole line -/

/-- The fold at the result buffer is the result term of the input's launch contents. -/
theorem result_fold (V : Valuation τ sig (Elt F)) :
    after ops V (main_v42 : DevRef τ sig) = RefResult.result (V (main_arg0 : DevRef τ sig)) := by
  rw [ops_split, Cert.Lib.AfterAppend.after_append, tail_fold,
    window_fold_0, window_fold_1, window_fold_2, window_fold_3, window_fold_4, window_fold_5, window_fold_6, window_fold_7, window_fold_8, window_fold_9, window_fold_10, window_fold_11, window_fold_12, window_fold_13, window_fold_14, window_fold_15, window_fold_16, window_fold_17, window_fold_18]
  rfl

/-- No operation writes the input. -/
theorem arg0_fold (V : Valuation τ sig (Elt F)) :
    after ops V (main_arg0 : DevRef τ sig) = V (main_arg0 : DevRef τ sig) := by
  after_results

/-- Every weakly fair execution of the reference terminates with the result buffer at `RefResult.result` of the input and
    the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = RefResult.result (m ((c.tc : Thread nD τ).loc main_arg0))
      ∧ r.2.mem ((c.tc : Thread nD τ).loc main_arg0) = m ((c.tc : Thread nD τ).loc main_arg0) :=
  (θ_run defs _ _).mono (fun _ h c => ⟨(h c main_v42).trans (result_fold _), (h c main_arg0).trans (arg0_fold _)⟩)
    (run_fold m ρ)

end Cert.ReferenceIdeal.RefRun

end
-- ==== Proof.lean ====
/-
  Overlapping context windows: a Pallas kernel against its jnp reference, equal over the extended reals.

  Both programs take `x : f32[32, 2000, 26]` (32 sequences of 2000 frames of 26 features), pad each sequence with 9 frames
  in front and 9 behind — the same three host operations in both, so the padded array `P : [32, 2018, 26]` is one term —
  and return `[32, 2000, 494]`: frame `t` of the result holds the 19 padded frames `t … t + 18` side by side, that is, at
  column `j`, feature `j mod 26` of padded frame `t + j / 26` (`Windows.unfold`, `Windows.src`).

  The reference builds this from 19 slices of `P`, joined along a new window axis and reshaped (`RefResult.result_eq`);
  the kernel copies, per sequence, 19 row ranges of its block of `P` into 19 column strips of its output block
  (`BodyWindows.out_eq`), its 32 blocks covering the result (`KernelWindows.final`). Neither does any arithmetic: the two
  results are the same re-indexing of the same array, so the equality holds for every input, finite or not, and the
  precondition is never opened. The idealized kernel is the kernel's own text read over the extended reals: no operation was
  rewritten, and there is nothing to preserve.
-/
import proofs.«112819_j5377299054741_2_alg».proof.Defs
import proofs.«112819_j5377299054741_2_alg».proof.Proof.Gen.Kernel
import proofs.«112819_j5377299054741_2_alg».proof.Proof.Gen.Kernel.Frame
import proofs.«112819_j5377299054741_2_alg».proof.Proof.Gen.KernelIdeal
import proofs.«112819_j5377299054741_2_alg».proof.Proof.Gen.KernelIdeal.Frame
import proofs.«112819_j5377299054741_2_alg».proof.Proof.Gen.ReferenceIdeal
import proofs.«112819_j5377299054741_2_alg».proof.Proof.Gen.Pre_finite_inputs
import proofs.«112819_j5377299054741_2_alg».proof.Proof.KernelWindows
import proofs.«112819_j5377299054741_2_alg».proof.Proof.RefRun
import Idealize.ShloMosaic.Adequacy
import Idealize.ShloMosaic.Init

noncomputable section

namespace Cert.Proof

open Idealize.ShloMosaic Idealize.SL.Sem

/-- The kernel as printed runs, and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its input as it was: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- No operation of the kernel was rewritten for the extended reals. -/
theorem preserves : Cert.preserves_Kernel_KernelIdeal := trivial

/-- From memories agreeing on the input, the kernel's result array and the reference's both end at the unfolded array of
    the padded input. -/
theorem algebraic : Cert.algebraic_KernelIdeal_ReferenceIdeal := by
  intro m ρ m' ρ' _ hagree
  refine ⟨_, Cert.KernelIdeal.KernelWindows.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefResult.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
